-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x1 : Shape := ⟨2, ![1600000, 1]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_

variable [Facts]

def fn {F : FTy → Type} [FloatOps F] (main_arg0 : FVec F S100000x32 .f32) (main_arg1 : FVec F S1600000x1 .f32) (main_arg2 : IVec S1600000 32) (main_arg3 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  main_v8
-- ==== Kernel.lean ====
abbrev S100000x32 : Shape := ⟨2, ![100000, 32]⟩
abbrev S1600000x1 : Shape := ⟨2, ![1600000, 1]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1600000x32 : Shape := ⟨2, ![1600000, 32]⟩
abbrev S10000x32 : Shape := ⟨2, ![10000, 32]⟩
abbrev S10000x1 : Shape := ⟨2, ![10000, 1]⟩
abbrev S2000x32 : Shape := ⟨2, ![2000, 32]⟩
abbrev S2000x1 : Shape := ⟨2, ![2000, 1]⟩
abbrev S2000 : Shape := ⟨1, ![2000]⟩

abbrev nBuf : Space → Nat
  | .hbm => 60
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S1600000, .i1⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S100000x1, .f32⟩
  | .hbm, ⟨59, _⟩ => ⟨S100000, .f32⟩
  | .local _ .vmem, ⟨0, _⟩ => ⟨S10000x32, .f32⟩
  | .local _ .vmem, ⟨1, _⟩ => ⟨S10000x32, .f32⟩
  | .local _ .vmem, ⟨2, _⟩ => ⟨S10000x1, .f32⟩
  | .local _ .vmem, ⟨3, _⟩ => ⟨S10000x1, .f32⟩
  | .local _ .vmem, ⟨4, _⟩ => ⟨S10000x32, .f32⟩
  | .local _ .vmem, ⟨5, _⟩ => ⟨S10000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S1600000x1_S1600000 : S1600000x1.ShapeCasts S1600000
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bcast_S_S100000x32 : S_.BroadcastsInDim S100000x32 (![] : Fin 0 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  reduces_S2000x32_S2000 : S2000x32.Reduces [1] S2000
  shapeCasts_S2000_S2000x1 : S2000.ShapeCasts S2000x1
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S1600000x32.size a
  hwx0_0 : ∀ i : grid0.Coords, EltTy.bits .f32 = 32 ∨ (Rect.block (s := S1600000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1600000x1.size a
  hwx0_1 : ∀ i : grid0.Coords, EltTy.bits .f32 = 32 ∨ (Rect.block (s := S1600000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S1600000x32.size a
  hwx0_2 : ∀ i : grid0.Coords, EltTy.bits .f32 = 32 ∨ (Rect.block (s := S1600000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v33) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000x1 : Shape := ⟨2, ![1600000, 1]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1600000x32 : Shape := ⟨2, ![1600000, 32]⟩

abbrev nBuf : Space → Nat
  | .hbm => 57
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S1600000, .i1⟩
  | .hbm, ⟨31, _⟩ => ⟨S1600000, .f32⟩
  | .hbm, ⟨32, _⟩ => ⟨S1600000x1, .f32⟩
  | .hbm, ⟨33, _⟩ => ⟨S100000x32, .f32⟩
  | .hbm, ⟨34, _⟩ => ⟨S100000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S1600000x1, .f32⟩
  | .hbm, ⟨45, _⟩ => ⟨S1600000x32, .f32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S100000x32, .f32⟩
  | .hbm, ⟨55, _⟩ => ⟨S_, .f32⟩
  | .hbm, ⟨56, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  reducesTo_S100000x32_S100000_d1 : S100000x32.ReducesTo [1] S100000
  h_S_ : 0 < S_.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run with its result named.

  The program is five stretches of host operations, the edge-message region, one more stretch, the score region and a
  closing reshape. Its run is the chain of these segments, each entered from the buffer contents the previous one
  leaves; the contents at the last boundary are the fold `Gen.W9`. Every weakly fair execution therefore ends with every
  unscoped buffer at `Gen.W9` — in particular the result buffer, which is what is stated here beside the unchanged
  arguments.
-/
import proofs.«162044_j2388001817202_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, faultless, with the result buffer at the last boundary's
    contents and the four arguments as launched. -/
theorem run : θ_run defs (onTc (τ := τ) (main (F := F))) ⟨m, fun _ => 0, ρ⟩ (fun r => ∀ c : Dev nD,
      r.2.mem ((c.tc : Thread nD τ).loc main_v39) = W9 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v39 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.RunValue

end
-- ==== Proof.Spec.lean ====
/-
  The node score, as one function of the four inputs.

  For a graph on 100000 nodes with 1600000 edges (source `s e`, destination `d e`), node features `x` (32 per node) and
  one weight `w e` per edge:

  * `degNorm t` — per node, `max(1, number of edges whose index in t is the node) ^ (−1/2)`, for `t` the sources or the
    destinations;
  * `edgeMsg` — per edge and lane, the source node's feature scaled by the source's norm, times the edge's weight, times
    the indicator that the edge is not a self-loop;
  * `aggOf` — per node and lane, the sum of the messages of the edges that end at the node;
  * `scoreTail` — per node, the sum over the lanes of `|x − aggregate · (destination norm)|`.

  `nodeScore` composes them; it is the text of the reference program with its stages named.
-/
import proofs.«162044_j2388001817202_2_alg».proof.Proof.Gen.ReferenceIdeal
import Idealize.ShloMosaic.PureOps.Ideal

set_option maxRecDepth 16384

noncomputable section

open scoped BigOperators

namespace Cert.NodeScore

open Idealize.ShloMosaic Cert.ReferenceIdeal Cert.ReferenceIdeal.Gen

/-- Per node, `max(1, count of the node among the indices t) ^ (−1/2)`. -/
def degNorm (t : IVec S1600000 32) : FVec Ideal S100000 .f32 :=
  Host.powf (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 t)
        (broadcastInDim S1600000 ![] bcast_S_S1600000 (constant S_ .f32 0x3F800000#32))))
    (broadcastInDim S100000 ![] bcast_S_S100000 (constant S_ .f32 0xBF000000#32))

/-- The same as a column `[100000, 1]`. -/
def normCol (t : IVec S1600000 32) : FVec Ideal S100000x1 .f32 :=
  broadcastInDim S100000x1 ![0] bcast_S100000_S100000x1_0 (degNorm t)

/-- The source indices as a column, a negative one moved up by the number of nodes. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge, 1 when source and destination differ and 0 for a self-loop. -/
def loopMask (s d : IVec S1600000 32) : FVec Ideal S1600000 .f32 := uitofp .f32 (cmpi .ne s d)

/-- The message of every edge: the norm-scaled feature row of its source, times its weight, times its mask. -/
def edgeMsg (x : FVec Ideal S100000x32 .f32) (w : FVec Ideal S1600000x1 .f32) (s d : IVec S1600000 32) :
    FVec Ideal S1600000x32 .f32 :=
  mulf (Host.gather gather_S100000x32_S1600000x1_S1600000x32_1_0_n_n_0_1_132
      (mulf x (broadcastInDim S100000x32 ![0, 1] bcast_S100000x1_S100000x32_0_1 (normCol s))) (wrapCol s))
    (broadcastInDim S1600000x32 ![0, 1] bcast_S1600000x1_S1600000x32_0_1
      (mulf w (broadcastInDim S1600000x1 ![0] bcast_S1600000_S1600000x1_0 (loopMask s d))))

/-- Per node, the sum of the messages of the edges that end there. -/
def aggOf (d : IVec S1600000 32) (msg : FVec Ideal S1600000x32 .f32) : FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d) msg

/-- Per node, the lane sum of `|x − agg · norm|`. -/
def scoreTail (x agg : FVec Ideal S100000x32 .f32) (ncol : FVec Ideal S100000x1 .f32) : FVec Ideal S100000 .f32 :=
  Host.reduceAdd (Host.absf (subf x (mulf agg (broadcastInDim S100000x32 ![0, 1] bcast_S100000x1_S100000x32_0_1 ncol))))
    (constant S_ .f32 0x00000000#32) reducesTo_S100000x32_S100000_d1 h_S_

/-- The node score of the four inputs. -/
def nodeScore (x : FVec Ideal S100000x32 .f32) (w : FVec Ideal S1600000x1 .f32) (s d : IVec S1600000 32) :
    FVec Ideal S100000 .f32 :=
  scoreTail x (aggOf d (edgeMsg x w s d)) (normCol d)

end Cert.NodeScore

end
-- ==== Proof.EdgeWeight.lean ====
/-
  The two arrays the kernel's host program hands to the message region, as functions of the inputs: the source-feature
  rows gathered along the edges, and the per-edge weight column — the edge's weight, times its self-loop mask, times
  the source norm gathered at its source.
-/
import proofs.«162044_j2388001817202_2_alg».proof.Proof.Gen.KernelIdeal
import proofs.«162044_j2388001817202_2_alg».proof.Proof.Spec

set_option maxRecDepth 16384

noncomputable section

open scoped BigOperators

namespace Cert.KernelIdeal.HostValue

open Idealize.ShloMosaic Cert.KernelIdeal Cert.KernelIdeal.Gen

/-- The per-edge weight column: the edge's weight, times its self-loop mask, times the source norm gathered at its
    source. -/
def edgeWeight (w : FVec Ideal S1600000x1 .f32) (s d : IVec S1600000 32) : FVec Ideal S1600000x1 .f32 :=
  broadcastInDim S1600000x1 ![0] bcast_S1600000_S1600000x1_0
    (mulf (mulf (shapeCast S1600000 w shapeCasts_S1600000x1_S1600000) (Cert.NodeScore.loopMask s d))
      (Host.gather gather_S100000_S1600000x1_S1600000_n_0_n_n_0_1_1 (Cert.NodeScore.degNorm s) (Cert.NodeScore.wrapCol s)))

/-- The gathered source-feature rows. -/
def srcRows (x : FVec Ideal S100000x32 .f32) (s : IVec S1600000 32) : FVec Ideal S1600000x32 .f32 :=
  Host.gather gather_S100000x32_S1600000x1_S1600000x32_1_0_n_n_0_1_132 x (Cert.NodeScore.wrapCol s)

end Cert.KernelIdeal.HostValue

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.MsgBlocks.lean ====
/-
  The edge-message region as one array.

  The region runs over 160 points; point `t` holds rows `10000 t … 10000 t + 9999` of the gathered source features
  (`[1600000, 32]`), the same rows of the per-edge weight column (`[1600000, 1]`), and writes the same rows of the message
  array: entry `(r, d)` of the block is the feature entry times the row's weight. The blocks tile the message array, so
  after the region the array holds, at every `(e, d)`, the gathered feature `(e, d)` times the weight of edge `e`.
-/
import proofs.«162044_j2388001817202_2_alg».proof.Proof.Gen.KernelIdeal.Frame
import proofs.«162044_j2388001817202_2_alg».proof.Proof.LibKeepdims
import Idealize.ShloMosaic.Lib.Pipeline.Value
import Idealize.ShloMosaic.Lib.ValueIdx

set_option maxRecDepth 16384

noncomputable section

open scoped BigOperators

namespace Cert.KernelIdeal.MsgValue

open Idealize.ShloMosaic Idealize.ShloMosaic.TcCoe Idealize.SL.Sem Idealize.ShloMosaic.ValueIdx
open Idealize.ShloMosaic.Pipeline (Dat)
open Cert.KernelIdeal Cert.KernelIdeal.Gen

/-- The product on the extended reals. -/
abbrev mulE (x y : EReal) : EReal := x * y

/-- The message array of a feature-row array `fs` and a weight column `ew`: row `e` of `fs` scaled by `ew e`. -/
def msgOf (fs : S1600000x32.Idx → EReal) (ew : S1600000x1.Idx → EReal) : S1600000x32.Idx → EReal :=
  fun i => mulE (fs i) (ew (ix2 ⟨(i 0).val, idx2_lt0 i⟩ 0))

theorem zero_offsets : (![0, 0] : Fin 2 → Nat) = fun _ => 0 := funext fun a => by fin_cases a <;> rfl

/-- The body's product, entry by entry: the feature block times the weight column spread along the row. -/
theorem block_product (x0 : Vec Ideal S10000x32 .f32) (x1 : Vec Ideal S10000x1 .f32) (p : Fin 10000) (q : Fin 32) :
    k0_pay1 x0 x1 (ix2 p q) = x0 (ix2 p q) * x1 (ix2 p 0) := by
  unfold k0_pay1
  rw [mulf_apply, shapeCast_self, shapeCast_self, Keepdims.bcast_col_apply]

/-- Where each window's block sits at point `t`: block row `t`, block column 0, for all three windows. -/
theorem block_positions : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the message array of the two arrays as the region finds them. -/
theorem flushed_eq (c : Dev nD) (t : Fin cfg0.N) :
    (dat0 V c).flushed 2 t = ((cfg0.win 2).blk t).view.read (Elt Ideal) (msgOf (V c main_v33) (V c main_v26)) := by
  show (cfg0.win 2).cut (grid0.coords t) ((dat0 V c).after 2 t) = _
  rw [after0_2]
  unfold out0_2
  rw [View.canon_unit_zero zero_offsets]
  simp only [View.ld_unit_zero (S := S10000x32) zero_offsets, View.ld_unit_zero (S := S10000x1) zero_offsets]
  obtain ⟨e0, e1, e2, e3, e4, e5⟩ := block_positions t
  funext j
  obtain ⟨p, q, rfl⟩ : ∃ (p : Fin 10000) (q : Fin 32), j = ix2 p q := ⟨j 0, j 1, eq_ix2 j⟩
  refine (block_product _ _ p q).trans ?_
  show mulE (V c main_v33 (((cfg0.win 0).blk t).view.emb (ix2 p q))) (V c main_v26 (((cfg0.win 1).blk t).view.emb (ix2 p 0)))
    = msgOf (V c main_v33) (V c main_v26) (((cfg0.win 2).blk t).view.emb (ix2 p q))
  unfold msgOf
  have h0 : ((cfg0.win 0).blk t).view.emb (ix2 p q) = ((cfg0.win 2).blk t).view.emb (ix2 p q) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 32 + 1 * q.val = win0_2.index t (1 : Fin 2) * 32 + 1 * q.val; omega
  have h1 : ((cfg0.win 1).blk t).view.emb (ix2 p 0)
      = ix2 ⟨((((cfg0.win 2).blk t).view.emb (ix2 p q)) 0).val, idx2_lt0 _⟩ 0 := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  rw [h0, h1]

/-- An index of the message array lies in point `t`'s block iff each coordinate lies in the block's range. -/
theorem mem_blk (t : Fin cfg0.N) (i : S1600000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v34).slice (win0_2.rect t)).set ↔ _
  rw [View.set_slice_whole, Rect.mem_set_unit]
  exact Iff.rfl

/-- Every row of the message array is in the block of the point `row / 10000`. -/
theorem covered (i : S1600000x32.Idx) :
    ∃ t : Fin cfg0.N, (cfg0.win 2).flush t = true ∧ i ∈ ((cfg0.win 2).blk t).view.set := by
  have hi0 : (i 0).val < 1600000 := (i 0).isLt
  have hi1 : (i 1).val < 32 := (i 1).isLt
  have hN : grid0.N = 160 := N_0
  have ht : (i 0).val / 10000 < cfg0.N := by show (i 0).val / 10000 < grid0.N; omega
  obtain ⟨-, -, -, -, e4, e5⟩ := block_positions ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 32 ≤ (i 1).val
      ∧ (i 1).val < win0_2.index ⟨(i 0).val / 10000, ht⟩ (1 : Fin 2) * 32 + 32
    rw [e5]; omega

/-- After the region the message array is `msgOf` of the gathered features and the weight column. -/
theorem final (c : Dev nD) : (dat0 V c).arrAt 2 cfg0.N = msgOf (V c main_v33) (V c main_v26) :=
  (dat0 V c).arrAt_eq_of_cover 2 (msgOf (V c main_v33) (V c main_v26)) (fun t _ => flushed_eq V c t) covered

end Cert.KernelIdeal.MsgValue

end
-- ==== Proof.ScoreBlocks.lean ====
/-
  The score region as one array.

  The region runs over 50 points; point `t` holds rows `2000 t … 2000 t + 1999` of the node features (`[100000, 32]`), of the
  aggregated messages (`[100000, 32]`) and of the destination norm column (`[100000, 1]`), and writes the same rows of the
  score column: entry `r` of the block is the sum over the 32 lanes of `|feature − aggregate · norm|`. The blocks tile
  the score column, so after the region it holds at every node that lane sum.
-/
import proofs.«162044_j2388001817202_2_alg».proof.Proof.Gen.KernelIdeal.Frame
import proofs.«162044_j2388001817202_2_alg».proof.Proof.LibKeepdims
import Idealize.ShloMosaic.Lib.Pipeline.Value
import Idealize.ShloMosaic.Lib.ValueIdx

set_option maxRecDepth 16384

noncomputable section

open scoped BigOperators

namespace Cert.KernelIdeal.ScoreValue

open Idealize.ShloMosaic Idealize.ShloMosaic.TcCoe Idealize.SL.Sem Idealize.ShloMosaic.ValueIdx
open Idealize.ShloMosaic.Pipeline (Dat)
open Cert.KernelIdeal Cert.KernelIdeal.Gen

/-- The absolute value on the extended reals, as the float operation reads there. -/
abbrev absE (x : EReal) : EReal := FloatOps.absf (F := Ideal) (φ := .f32) x

/-- One lane's term: `|f − a · d|`. -/
abbrev termE (f a d : EReal) : EReal := absE (f - a * d)

/-- The score column of a feature array `f`, an aggregate array `a` and a norm column `d`: at node `n` the sum over the
    lanes `k` of `|f (n, k) − a (n, k) · d n|`. -/
def scoreOf (f a : S100000x32.Idx → EReal) (d : S100000x1.Idx → EReal) : S100000x1.Idx → EReal :=
  fun i => ∑ k : Fin 32, termE (f (ix2 ⟨(i 0).val, idx2_lt0 i⟩ k)) (a (ix2 ⟨(i 0).val, idx2_lt0 i⟩ k)) (d (ix2 ⟨(i 0).val, idx2_lt0 i⟩ 0))

theorem zero_offsets : (![0, 0] : Fin 2 → Nat) = fun _ => 0 := funext fun a => by fin_cases a <;> rfl

/-- The body's value, entry by entry: the lane sum of the absolute differences of the row. -/
theorem block_score (x0 x1 : Vec Ideal S2000x32 .f32) (x2 : Vec Ideal S2000x1 .f32) (p : Fin 2000) (z : Fin 1) :
    k1_pay1 x0 x1 x2 (ix2 p z) = ∑ k : Fin 32, termE (x0 (ix2 p k)) (x1 (ix2 p k)) (x2 (ix2 p 0)) := by
  unfold k1_pay1
  rw [Keepdims.cast_col_apply]
  refine (Keepdims.rowSum2_apply _ _ _ _ _ p).trans ?_
  refine Finset.sum_congr rfl fun k _ => ?_
  refine congrArg absE ?_
  rw [subf_apply, mulf_apply, shapeCast_self, shapeCast_self, Keepdims.bcast_col_apply]

/-- Where each window's block sits at point `t`: block row `t`, block column 0, for all four windows. -/
theorem block_positions : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the score column of the three arrays as the region finds them. -/
theorem flushed_eq (c : Dev nD) (t : Fin cfg1.N) :
    (dat1 V c).flushed 3 t
      = ((cfg1.win 3).blk t).view.read (Elt Ideal) (scoreOf (V c main_arg0) (V c main_v37) (V c main_v13)) := by
  show (cfg1.win 3).cut (grid1.coords t) ((dat1 V c).after 3 t) = _
  rw [after1_3]
  unfold out1_3
  rw [View.canon_unit_zero zero_offsets]
  simp only [View.ld_unit_zero (S := S2000x32) zero_offsets, View.ld_unit_zero (S := S2000x1) zero_offsets]
  obtain ⟨e0, e1, e2, e3, e4, e5, e6, e7⟩ := block_positions t
  funext j
  obtain ⟨p, z, rfl⟩ : ∃ (p : Fin 2000) (z : Fin 1), j = ix2 p z := ⟨j 0, j 1, eq_ix2 j⟩
  refine (block_score _ _ _ p z).trans ?_
  show ∑ k : Fin 32, termE (V c main_arg0 (((cfg1.win 0).blk t).view.emb (ix2 p k)))
        (V c main_v37 (((cfg1.win 1).blk t).view.emb (ix2 p k))) (V c main_v13 (((cfg1.win 2).blk t).view.emb (ix2 p 0)))
    = scoreOf (V c main_arg0) (V c main_v37) (V c main_v13) (((cfg1.win 3).blk t).view.emb (ix2 p z))
  unfold scoreOf
  have h0 : ∀ k : Fin 32, ((cfg1.win 0).blk t).view.emb (ix2 p k)
      = ix2 ⟨((((cfg1.win 3).blk t).view.emb (ix2 p z)) 0).val, idx2_lt0 _⟩ k := by
    intro k; funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 32 + 1 * k.val = k.val; omega
  have h1 : ∀ k : Fin 32, ((cfg1.win 1).blk t).view.emb (ix2 p k)
      = ix2 ⟨((((cfg1.win 3).blk t).view.emb (ix2 p z)) 0).val, idx2_lt0 _⟩ k := by
    intro k; funext a; apply Fin.ext
    match a with
    | ⟨0, _⟩ => show win1_1.index t (0 : Fin 2) * 2000 + 1 * p.val = win1_3.index t (0 : Fin 2) * 2000 + 1 * p.val; omega
    | ⟨1, _⟩ => show win1_1.index t (1 : Fin 2) * 32 + 1 * k.val = k.val; omega
  have h2 : ((cfg1.win 2).blk t).view.emb (ix2 p 0)
      = ix2 ⟨((((cfg1.win 3).blk t).view.emb (ix2 p z)) 0).val, idx2_lt0 _⟩ 0 := by
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 1 + 1 * 0 = 0; omega
  refine Finset.sum_congr rfl fun k _ => ?_
  rw [h0 k, h1 k, h2]

/-- An index of the score column lies in point `t`'s block iff each coordinate lies in the block's range. -/
theorem mem_blk (t : Fin cfg1.N) (i : S100000x1.Idx) :
    i ∈ ((cfg1.win 3).blk t).view.set ↔ ∀ a : Fin 2, win1_3.index t a * S2000x1.size a ≤ (i a).val
      ∧ (i a).val < win1_3.index t a * S2000x1.size a + S2000x1.size a := by
  show i ∈ ((View.whole main_v38).slice (win1_3.rect t)).set ↔ _
  rw [View.set_slice_whole, Rect.mem_set_unit]
  exact Iff.rfl

/-- Every node's entry of the score column is in the block of the point `node / 2000`. -/
theorem covered (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : grid1.N = 50 := N_1
  have ht : (i 0).val / 2000 < cfg1.N := by show (i 0).val / 2000 < grid1.N; omega
  obtain ⟨-, -, -, -, -, -, e6, e7⟩ := block_positions ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 1 ≤ (i 1).val
      ∧ (i 1).val < win1_3.index ⟨(i 0).val / 2000, ht⟩ (1 : Fin 2) * 1 + 1
    rw [e7]; omega

/-- After the region the score column is `scoreOf` of the features, the aggregate and the norm column. -/
theorem final (c : Dev nD) :
    (dat1 V c).arrAt 3 cfg1.N = scoreOf (V c main_arg0) (V c main_v37) (V c main_v13) :=
  (dat1 V c).arrAt_eq_of_cover 3 (scoreOf (V c main_arg0) (V c main_v37) (V c main_v13)) (fun t _ => flushed_eq V c t) covered

end Cert.KernelIdeal.ScoreValue

end
-- ==== Proof.Vocab.lean ====
/-
  The kernel program's own spelling of the stages its host operations compute, and that each is the stage the
  specification names: the two printed programs name the same shapes and the same scatter dimension numbers.
-/
import proofs.«162044_j2388001817202_2_alg».proof.Proof.Gen.KernelIdeal
import proofs.«162044_j2388001817202_2_alg».proof.Proof.Spec
import proofs.«162044_j2388001817202_2_alg».proof.Proof.EdgeWeight

set_option maxRecDepth 16384

noncomputable section

open scoped BigOperators

namespace Cert.KernelIdeal.Vocab

open Idealize.ShloMosaic Cert.KernelIdeal Cert.KernelIdeal.Gen

/-- The count of a node among the indices `t`. -/
def degSum (t : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 t)
    (broadcastInDim S1600000 ![] bcast_S_S1600000 (constant S_ .f32 0x3F800000#32))

/-- A count clipped below at the scalar `one`. -/
def clipBelow (v : FVec Ideal S100000 .f32) (one : FVec Ideal S_ .f32) : FVec Ideal S100000 .f32 :=
  maximumf (broadcastInDim S100000 ![] bcast_S_S100000 (id one)) v

/-- The power −1/2, entry by entry. -/
def invSqrt (v : FVec Ideal S100000 .f32) : FVec Ideal S100000 .f32 :=
  Host.powf v (broadcastInDim S100000 ![] bcast_S_S100000 (constant S_ .f32 0xBF000000#32))

/-- A node vector as a column. -/
def asCol (v : FVec Ideal S100000 .f32) : FVec Ideal S100000x1 .f32 :=
  broadcastInDim S100000x1 ![0] bcast_S100000_S100000x1_0 v

/-- The source indices as a column, a negative one moved up by the number of nodes. -/
def wrapped (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The feature rows gathered along the edges. -/
def rowsAt (x : FVec Ideal S100000x32 .f32) (s : IVec S1600000 32) : FVec Ideal S1600000x32 .f32 :=
  Host.gather gather_S100000x32_S1600000x1_S1600000x32_1_0_n_n_0_1_132 x (wrapped s)

/-- The per-edge weight column from a node vector `v` of norms: weight · mask · `v` gathered at the source. -/
def weightCol (w : FVec Ideal S1600000x1 .f32) (s d : IVec S1600000 32) (v : FVec Ideal S100000 .f32) :
    FVec Ideal S1600000x1 .f32 :=
  broadcastInDim S1600000x1 ![0] bcast_S1600000_S1600000x1_0
    (mulf (mulf (shapeCast S1600000 w shapeCasts_S1600000x1_S1600000) (uitofp .f32 (cmpi .ne s d)))
      (Host.gather gather_S100000_S1600000x1_S1600000_n_0_n_n_0_1_1 v (wrapped s)))

/-- The two programs' scatter dimension numbers are the same record. -/
theorem scatter1_eq : scatter_S100000_S1600000x1_S1600000_n_0_0_1
    = Cert.ReferenceIdeal.scatter_S100000_S1600000x1_S1600000_n_0_0_1 := rfl

/-- The clipped count to the power −1/2 is the specification's degree norm. -/
theorem degNorm_eq (t : IVec S1600000 32) :
    invSqrt (clipBelow (degSum t) (constant S_ .f32 0x3F800000#32)) = Cert.NodeScore.degNorm t := by
  unfold invSqrt clipBelow degSum Cert.NodeScore.degNorm
  rw [scatter1_eq]

theorem wrapped_eq (s : IVec S1600000 32) : wrapped s = Cert.NodeScore.wrapCol s := rfl

theorem asCol_eq (t : IVec S1600000 32) : asCol (Cert.NodeScore.degNorm t) = Cert.NodeScore.normCol t := rfl

theorem rowsAt_eq (x : FVec Ideal S100000x32 .f32) (s : IVec S1600000 32) :
    rowsAt x s = Cert.KernelIdeal.HostValue.srcRows x s := rfl

theorem weightCol_eq (w : FVec Ideal S1600000x1 .f32) (s d : IVec S1600000 32) :
    weightCol w s d (Cert.NodeScore.degNorm s) = Cert.KernelIdeal.HostValue.edgeWeight w s d := rfl

end Cert.KernelIdeal.Vocab

end
-- ==== Proof.LibSkipWrites.lean ====
/-
  Reading a buffer through host operations that do not write it: for a literal list of operations none of which
  writes the buffer `b`, the contents after the list are the contents before it.
-/
import Idealize.ShloMosaic.Lib.StableHlo.Run

open Idealize.ShloMosaic

/-- Closes `StableHlo.after ops V b = V b` for a literal list `ops` (given by the names to unfold) none of whose
    operations writes `b`: each operation writes one buffer, and that buffer is another one. -/
macro "skip_writes" "[" ls:Lean.Parser.Tactic.simpLemma,* "]" : tactic => `(tactic|
  (refine StableHlo.after_of_forall_not_mem _ _ (List.forall_iff_forall_mem.mp ?_)
   simp only [$ls,*, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))
-- ==== Proof.HostPre.lean ====
/-
  The kernel program's host operations before the message region, read stretch by stretch.

  The first stretch counts, per node, the edges that start and that end there; the two short stretches that follow
  clip a count below at 1 (an outlined function, once per count); the stretches between and after raise the clipped
  counts to the power −1/2; the last, long stretch forms the self-loop mask, wraps the source indices, gathers the
  source norm and the feature rows along the edges and multiplies weight, mask and gathered norm into the per-edge
  weight column. Each stretch is read from the contents the previous one leaves, taken as given.
-/
import proofs.«162044_j2388001817202_2_alg».proof.Proof.Gen.KernelIdeal.Frame
import proofs.«162044_j2388001817202_2_alg».proof.Proof.Spec
import proofs.«162044_j2388001817202_2_alg».proof.Proof.Vocab
import proofs.«162044_j2388001817202_2_alg».proof.Proof.EdgeWeight
import proofs.«162044_j2388001817202_2_alg».proof.Proof.LibSkipWrites

set_option maxRecDepth 16384

noncomputable section

open scoped BigOperators

namespace Cert.KernelIdeal.HostValue

open Idealize.ShloMosaic Idealize.ShloMosaic.TcCoe Idealize.SL.Sem Idealize.ShloMosaic.StableHlo
open Cert.KernelIdeal Cert.KernelIdeal.Gen Cert.KernelIdeal.Vocab

variable (m : (ℓ : Loc nD τ sig) → Buf (Elt Ideal) ℓ) (ρ : Dev nD → PrngReg)

/-! ## The arguments pass through the first four stretches -/

theorem W4_arg0 (c : Dev nD) : W4 m ρ c (Proc.devRef .tc main_arg0) = m ((c.tc : Thread nD τ).loc main_arg0) := by
  have h4 : W4 m ρ c (Proc.devRef .tc main_arg0) = W3 m ρ c (Proc.devRef .tc main_arg0) := by
    show after hostOps0_3 (W3 m ρ c) (Proc.devRef .tc main_arg0) = _
    skip_writes [hostOps0_3]
  have h3 : W3 m ρ c (Proc.devRef .tc main_arg0) = W2 m ρ c (Proc.devRef .tc main_arg0) := by
    show after hostOps0_2 (W2 m ρ c) (Proc.devRef .tc main_arg0) = _
    skip_writes [hostOps0_2]
  have h2 : W2 m ρ c (Proc.devRef .tc main_arg0) = W1 m ρ c (Proc.devRef .tc main_arg0) := by
    show after hostOps0_1 (W1 m ρ c) (Proc.devRef .tc main_arg0) = _
    skip_writes [hostOps0_1]
  have h1 : W1 m ρ c (Proc.devRef .tc main_arg0) = W0 m ρ c (Proc.devRef .tc main_arg0) := by
    show after hostOps0 (W0 m ρ c) (Proc.devRef .tc main_arg0) = _
    skip_writes [hostOps0]
  rw [h4, h3, h2, h1]

theorem W4_arg1 (c : Dev nD) : W4 m ρ c (Proc.devRef .tc main_arg1) = m ((c.tc : Thread nD τ).loc main_arg1) := by
  have h4 : W4 m ρ c (Proc.devRef .tc main_arg1) = W3 m ρ c (Proc.devRef .tc main_arg1) := by
    show after hostOps0_3 (W3 m ρ c) (Proc.devRef .tc main_arg1) = _
    skip_writes [hostOps0_3]
  have h3 : W3 m ρ c (Proc.devRef .tc main_arg1) = W2 m ρ c (Proc.devRef .tc main_arg1) := by
    show after hostOps0_2 (W2 m ρ c) (Proc.devRef .tc main_arg1) = _
    skip_writes [hostOps0_2]
  have h2 : W2 m ρ c (Proc.devRef .tc main_arg1) = W1 m ρ c (Proc.devRef .tc main_arg1) := by
    show after hostOps0_1 (W1 m ρ c) (Proc.devRef .tc main_arg1) = _
    skip_writes [hostOps0_1]
  have h1 : W1 m ρ c (Proc.devRef .tc main_arg1) = W0 m ρ c (Proc.devRef .tc main_arg1) := by
    show after hostOps0 (W0 m ρ c) (Proc.devRef .tc main_arg1) = _
    skip_writes [hostOps0]
  rw [h4, h3, h2, h1]

theorem W4_arg2 (c : Dev nD) : W4 m ρ c (Proc.devRef .tc main_arg2) = m ((c.tc : Thread nD τ).loc main_arg2) := by
  have h4 : W4 m ρ c (Proc.devRef .tc main_arg2) = W3 m ρ c (Proc.devRef .tc main_arg2) := by
    show after hostOps0_3 (W3 m ρ c) (Proc.devRef .tc main_arg2) = _
    skip_writes [hostOps0_3]
  have h3 : W3 m ρ c (Proc.devRef .tc main_arg2) = W2 m ρ c (Proc.devRef .tc main_arg2) := by
    show after hostOps0_2 (W2 m ρ c) (Proc.devRef .tc main_arg2) = _
    skip_writes [hostOps0_2]
  have h2 : W2 m ρ c (Proc.devRef .tc main_arg2) = W1 m ρ c (Proc.devRef .tc main_arg2) := by
    show after hostOps0_1 (W1 m ρ c) (Proc.devRef .tc main_arg2) = _
    skip_writes [hostOps0_1]
  have h1 : W1 m ρ c (Proc.devRef .tc main_arg2) = W0 m ρ c (Proc.devRef .tc main_arg2) := by
    show after hostOps0 (W0 m ρ c) (Proc.devRef .tc main_arg2) = _
    skip_writes [hostOps0]
  rw [h4, h3, h2, h1]

theorem W4_arg3 (c : Dev nD) : W4 m ρ c (Proc.devRef .tc main_arg3) = m ((c.tc : Thread nD τ).loc main_arg3) := by
  have h4 : W4 m ρ c (Proc.devRef .tc main_arg3) = W3 m ρ c (Proc.devRef .tc main_arg3) := by
    show after hostOps0_3 (W3 m ρ c) (Proc.devRef .tc main_arg3) = _
    skip_writes [hostOps0_3]
  have h3 : W3 m ρ c (Proc.devRef .tc main_arg3) = W2 m ρ c (Proc.devRef .tc main_arg3) := by
    show after hostOps0_2 (W2 m ρ c) (Proc.devRef .tc main_arg3) = _
    skip_writes [hostOps0_2]
  have h2 : W2 m ρ c (Proc.devRef .tc main_arg3) = W1 m ρ c (Proc.devRef .tc main_arg3) := by
    show after hostOps0_1 (W1 m ρ c) (Proc.devRef .tc main_arg3) = _
    skip_writes [hostOps0_1]
  have h1 : W1 m ρ c (Proc.devRef .tc main_arg3) = W0 m ρ c (Proc.devRef .tc main_arg3) := by
    show after hostOps0 (W0 m ρ c) (Proc.devRef .tc main_arg3) = _
    skip_writes [hostOps0]
  rw [h4, h3, h2, h1]

/-! ## The degree counts and their clipped powers -/

theorem W1_v3 (c : Dev nD) : (W1 m ρ c (Proc.devRef .tc main_v3)) = degSum (m ((c.tc : Thread nD τ).loc main_arg2)) := by
  show after hostOps0 (W0 m ρ c) (Proc.devRef .tc main_v3) = _
  unfold degSum
  after_results

theorem W1_v6 (c : Dev nD) : (W1 m ρ c (Proc.devRef .tc main_v6)) = degSum (m ((c.tc : Thread nD τ).loc main_arg3)) := by
  show after hostOps0 (W0 m ρ c) (Proc.devRef .tc main_v6) = _
  unfold degSum
  after_results

theorem W1_cst2 (c : Dev nD) : (W1 m ρ c (Proc.devRef .tc main_cst_2)) = constant (F := Ideal) S_ .f32 0x3F800000#32 := by
  show after hostOps0 (W0 m ρ c) (Proc.devRef .tc main_cst_2) = _
  after_results

/-- The clipped out-degree count. -/
theorem W2_v7 (c : Dev nD) :
    (W2 m ρ c (Proc.devRef .tc main_v7)) = clipBelow (degSum (m ((c.tc : Thread nD τ).loc main_arg2))) (constant S_ .f32 0x3F800000#32) := by
  have h : (W2 m ρ c (Proc.devRef .tc main_v7)) = clipBelow (W1 m ρ c (Proc.devRef .tc main_v3)) (W1 m ρ c (Proc.devRef .tc main_cst_2)) := by
    show after hostOps0_1 (W1 m ρ c) (Proc.devRef .tc main_v7) = _
    generalize W1 m ρ c = V
    unfold clipBelow
    after_results
    rfl
  rw [h, W1_cst2, W1_v3]

/-- The source norm. -/
theorem W4_v9 (c : Dev nD) : (W4 m ρ c (Proc.devRef .tc main_v9)) = Cert.NodeScore.degNorm (m ((c.tc : Thread nD τ).loc main_arg2)) := by
  have h4 : (W4 m ρ c (Proc.devRef .tc main_v9)) = (W3 m ρ c (Proc.devRef .tc main_v9)) := by
    show after hostOps0_3 (W3 m ρ c) (Proc.devRef .tc main_v9) = _
    skip_writes [hostOps0_3]
  have h3 : (W3 m ρ c (Proc.devRef .tc main_v9)) = invSqrt (W2 m ρ c (Proc.devRef .tc main_v7)) := by
    show after hostOps0_2 (W2 m ρ c) (Proc.devRef .tc main_v9) = _
    generalize W2 m ρ c = V
    unfold invSqrt
    after_results
  rw [h4, h3, W2_v7, degNorm_eq]

/-- The clipped in-degree count. -/
theorem W4_v10 (c : Dev nD) :
    (W4 m ρ c (Proc.devRef .tc main_v10)) = clipBelow (degSum (m ((c.tc : Thread nD τ).loc main_arg3))) (constant S_ .f32 0x3F800000#32) := by
  have h4 : (W4 m ρ c (Proc.devRef .tc main_v10)) = clipBelow (W3 m ρ c (Proc.devRef .tc main_v6)) (W3 m ρ c (Proc.devRef .tc main_cst_4)) := by
    show after hostOps0_3 (W3 m ρ c) (Proc.devRef .tc main_v10) = _
    generalize W3 m ρ c = V
    unfold clipBelow
    after_results
    rfl
  have hc : (W3 m ρ c (Proc.devRef .tc main_cst_4)) = constant (F := Ideal) S_ .f32 0x3F800000#32 := by
    show after hostOps0_2 (W2 m ρ c) (Proc.devRef .tc main_cst_4) = _
    after_results
  have h3 : (W3 m ρ c (Proc.devRef .tc main_v6)) = (W2 m ρ c (Proc.devRef .tc main_v6)) := by
    show after hostOps0_2 (W2 m ρ c) (Proc.devRef .tc main_v6) = _
    skip_writes [hostOps0_2]
  have h2 : (W2 m ρ c (Proc.devRef .tc main_v6)) = (W1 m ρ c (Proc.devRef .tc main_v6)) := by
    show after hostOps0_1 (W1 m ρ c) (Proc.devRef .tc main_v6) = _
    skip_writes [hostOps0_1]
  rw [h4, hc, h3, h2, W1_v6]

/-! ## At the message region's entry -/

/-- The gathered source-feature rows. -/
theorem W5_v33 (c : Dev nD) : (W5 m ρ c (Proc.devRef .tc main_v33)) = srcRows (m ((c.tc : Thread nD τ).loc main_arg0)) (m ((c.tc : Thread nD τ).loc main_arg2)) := by
  have h : (W5 m ρ c (Proc.devRef .tc main_v33)) = rowsAt (W4 m ρ c (Proc.devRef .tc main_arg0)) (W4 m ρ c (Proc.devRef .tc main_arg2)) := by
    show after hostOps0_4 (W4 m ρ c) (Proc.devRef .tc main_v33) = _
    generalize W4 m ρ c = V
    unfold rowsAt wrapped
    after_results_simp
  rw [h, W4_arg0, W4_arg2, rowsAt_eq]

/-- The per-edge weight column. -/
theorem W5_v26 (c : Dev nD) :
    (W5 m ρ c (Proc.devRef .tc main_v26)) = edgeWeight (m ((c.tc : Thread nD τ).loc main_arg1)) (m ((c.tc : Thread nD τ).loc main_arg2)) (m ((c.tc : Thread nD τ).loc main_arg3)) := by
  have h : (W5 m ρ c (Proc.devRef .tc main_v26))
      = weightCol (W4 m ρ c (Proc.devRef .tc main_arg1)) (W4 m ρ c (Proc.devRef .tc main_arg2)) (W4 m ρ c (Proc.devRef .tc main_arg3)) (W4 m ρ c (Proc.devRef .tc main_v9)) := by
    show after hostOps0_4 (W4 m ρ c) (Proc.devRef .tc main_v26) = _
    generalize W4 m ρ c = V
    unfold weightCol wrapped
    after_results_simp
    rfl
  rw [h, W4_arg1, W4_arg2, W4_arg3, W4_v9, weightCol_eq]

/-- The destination norm column. -/
theorem W5_v13 (c : Dev nD) : (W5 m ρ c (Proc.devRef .tc main_v13)) = Cert.NodeScore.normCol (m ((c.tc : Thread nD τ).loc main_arg3)) := by
  have h : (W5 m ρ c (Proc.devRef .tc main_v13)) = asCol (invSqrt (W4 m ρ c (Proc.devRef .tc main_v10))) := by
    show after hostOps0_4 (W4 m ρ c) (Proc.devRef .tc main_v13) = _
    generalize W4 m ρ c = V
    unfold asCol invSqrt
    after_results_simp
  rw [h, W4_v10, degNorm_eq, asCol_eq]

/-- The features and the destination indices are as launched. -/
theorem W5_arg0 (c : Dev nD) : (W5 m ρ c (Proc.devRef .tc main_arg0)) = m ((c.tc : Thread nD τ).loc main_arg0) := by
  have h : (W5 m ρ c (Proc.devRef .tc main_arg0)) = (W4 m ρ c (Proc.devRef .tc main_arg0)) := by
    show after hostOps0_4 (W4 m ρ c) (Proc.devRef .tc main_arg0) = _
    skip_writes [hostOps0_4]
  rw [h, W4_arg0]

theorem W5_arg3 (c : Dev nD) : (W5 m ρ c (Proc.devRef .tc main_arg3)) = m ((c.tc : Thread nD τ).loc main_arg3) := by
  have h : (W5 m ρ c (Proc.devRef .tc main_arg3)) = (W4 m ρ c (Proc.devRef .tc main_arg3)) := by
    show after hostOps0_4 (W4 m ρ c) (Proc.devRef .tc main_arg3) = _
    skip_writes [hostOps0_4]
  rw [h, W4_arg3]

end Cert.KernelIdeal.HostValue

end
-- ==== Proof.HostChain.lean ====
/-
  The idealized kernel's run from the message region on, read: what the two regions leave, and the result.

  The message region leaves the source rows scaled by the edge weights; the host then sums the messages into the nodes;
  the score region leaves the score column of the features, the aggregate and the destination norm column; the closing
  reshape drops the column's unit axis. Each buffer is read back as a term of the arguments, the two regions' arrays by
  what their blocks tile.
-/
import proofs.«162044_j2388001817202_2_alg».proof.Proof.Gen.KernelIdeal.Frame
import proofs.«162044_j2388001817202_2_alg».proof.Proof.Spec
import proofs.«162044_j2388001817202_2_alg».proof.Proof.EdgeWeight
import proofs.«162044_j2388001817202_2_alg».proof.Proof.MsgBlocks
import proofs.«162044_j2388001817202_2_alg».proof.Proof.ScoreBlocks
import proofs.«162044_j2388001817202_2_alg».proof.Proof.HostPre
import proofs.«162044_j2388001817202_2_alg».proof.Proof.LibSkipWrites

set_option maxRecDepth 16384

noncomputable section

open scoped BigOperators

namespace Cert.KernelIdeal.HostValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After the message region, and at the score region's entry -/

/-- The message array after the region: the source rows scaled by the edge weights. -/
theorem W6_v34 (c : Dev nD) : W6 m ρ c (Proc.devRef .tc main_v34)
    = MsgValue.msgOf (srcRows (m ((c.tc : Thread nD τ).loc main_arg0)) (m ((c.tc : Thread nD τ).loc main_arg2)))
        (edgeWeight (m ((c.tc : Thread nD τ).loc main_arg1)) (m ((c.tc : Thread nD τ).loc main_arg2))
          (m ((c.tc : Thread nD τ).loc main_arg3))) := by
  refine ((W6_arr m ρ c 2).trans (MsgValue.final (V5 m ρ) c)).trans ?_
  show MsgValue.msgOf (W5 m ρ c (Proc.devRef .tc main_v33)) (W5 m ρ c (Proc.devRef .tc main_v26)) = _
  rw [W5_v33, W5_v26]

/-- The aggregated messages at the score region's entry. -/
theorem W7_v37 (c : Dev nD) : W7 m ρ c (Proc.devRef .tc main_v37)
    = Cert.NodeScore.aggOf (m ((c.tc : Thread nD τ).loc main_arg3))
        (MsgValue.msgOf (srcRows (m ((c.tc : Thread nD τ).loc main_arg0)) (m ((c.tc : Thread nD τ).loc main_arg2)))
          (edgeWeight (m ((c.tc : Thread nD τ).loc main_arg1)) (m ((c.tc : Thread nD τ).loc main_arg2))
            (m ((c.tc : Thread nD τ).loc main_arg3)))) := by
  have h : W7 m ρ c (Proc.devRef .tc main_v37)
      = Cert.NodeScore.aggOf (W6 m ρ c (Proc.devRef .tc main_arg3)) (W6 m ρ c (Proc.devRef .tc main_v34)) := by
    show after hostOps1 (W6 m ρ c) (Proc.devRef .tc main_v37) = _
    generalize W6 m ρ c = V
    unfold Cert.NodeScore.aggOf
    after_results
    rfl
  rw [h, W6_v34, W6_of_ne m ρ c main_arg3 (by decide), W5_arg3]

/-- The features at the score region's entry. -/
theorem W7_arg0 (c : Dev nD) : W7 m ρ c (Proc.devRef .tc main_arg0) = m ((c.tc : Thread nD τ).loc main_arg0) := by
  have h : W7 m ρ c (Proc.devRef .tc main_arg0) = W6 m ρ c (Proc.devRef .tc main_arg0) := by
    show after hostOps1 (W6 m ρ c) (Proc.devRef .tc main_arg0) = _
    skip_writes [hostOps1]
  rw [h, W6_of_ne m ρ c main_arg0 (by decide), W5_arg0]

/-- The destination norm column at the score region's entry. -/
theorem W7_v13 (c : Dev nD) : W7 m ρ c (Proc.devRef .tc main_v13)
    = Cert.NodeScore.normCol (m ((c.tc : Thread nD τ).loc main_arg3)) := by
  have h : W7 m ρ c (Proc.devRef .tc main_v13) = W6 m ρ c (Proc.devRef .tc main_v13) := by
    show after hostOps1 (W6 m ρ c) (Proc.devRef .tc main_v13) = _
    skip_writes [hostOps1]
  rw [h, W6_of_ne m ρ c main_v13 (by decide), W5_v13]

/-! ## The result -/

/-- The kernel's result as a function of the launch contents of the four arguments: the score column of the
    features, the aggregated kernel messages and the destination norm column, its unit axis dropped. -/
def kernelScore (x : FVec Ideal S100000x32 .f32) (w : FVec Ideal S1600000x1 .f32) (s d : IVec S1600000 32) :
    FVec Ideal S100000 .f32 :=
  shapeCast S100000 (ScoreValue.scoreOf x (Cert.NodeScore.aggOf d (MsgValue.msgOf (srcRows x s) (edgeWeight w s d)))
    (Cert.NodeScore.normCol d)) shapeCasts_S100000x1_S100000

/-- The result buffer at the last boundary. -/
theorem W9_v39 (c : Dev nD) : W9 m ρ c (Proc.devRef .tc main_v39)
    = kernelScore (m ((c.tc : Thread nD τ).loc main_arg0)) (m ((c.tc : Thread nD τ).loc main_arg1))
        (m ((c.tc : Thread nD τ).loc main_arg2)) (m ((c.tc : Thread nD τ).loc main_arg3)) := by
  have h : W9 m ρ c (Proc.devRef .tc main_v39)
      = shapeCast S100000 (W8 m ρ c (Proc.devRef .tc main_v38)) shapeCasts_S100000x1_S100000 := by
    show after hostOps2 (W8 m ρ c) (Proc.devRef .tc main_v39) = _
    generalize W8 m ρ c = V
    after_results
    rfl
  have h8 : W8 m ρ c (Proc.devRef .tc main_v38)
      = ScoreValue.scoreOf (W7 m ρ c (Proc.devRef .tc main_arg0)) (W7 m ρ c (Proc.devRef .tc main_v37))
          (W7 m ρ c (Proc.devRef .tc main_v13)) :=
    (W8_arr m ρ c 3).trans (ScoreValue.final (V7 m ρ) c)
  rw [h, h8, W7_arg0, W7_v37, W7_v13]
  rfl

end Cert.KernelIdeal.HostValue

end
-- ==== Proof.LibSegmentOps.lean ====
/-
  Segment sums and row gathers read at an index

  A graph layer sums, for every node, a value carried by each edge that ends at it, and reads, for every edge, a value
  carried by the node it starts from. In StableHLO the first is a `scatter` whose body adds, over an index array of shape
  `[M, 1]` (one node number per edge), and the second a `gather` over the same kind of index array. This file reads
  both at one element, at the ideal instance (a float is an extended real), for a vector of node values (`[N]`) and for
  a matrix of node rows (`[N, C]`):

  * `scatterAdd1_apply` / `scatterAdd2_apply`: element `i` (or `(i, o)`) of the accumulated array is the operand's
    element plus the sum, over the edges `e` whose index word read as a signed integer is `i`, of update `e` (or
    `(e, o)`); an edge whose index is outside `[0, N)` contributes to no element.
  * `gather1_apply` / `gather2_apply`: element `e` (or `(e, o)`) of the gathered array is the operand at the index word of
    edge `e` read as a signed integer and clamped into `[0, N - 1]`.

  The dimension numbers are abbreviations that take the proof of their side conditions as an argument, so a record with the
  same field lists is one of them by `rfl`.
-/
import Idealize.ShloMosaic.PureOps.Ideal
import Idealize.ShloMosaic.Lib.ValueIdx

noncomputable section

open scoped BigOperators

namespace Idealize.ShloMosaic.SegmentOps

open Idealize.ShloMosaic Idealize.ShloMosaic.ValueIdx

/-! ## Two general facts -/

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- An update index `j` lands at the operand index `i` exactly when, on every operand axis, the start read off the
    scatter indices plus the window coordinate is `i`'s coordinate (so in particular is inside the operand). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      simp only at h2
      have := h a
      omega
    · intro he
      refine congrArg some (funext fun a => Fin.ext ?_)
      have := he a
      simp only
      omega
  · rename_i h
    constructor
    · intro he; exact absurd he (by simp)
    · intro he
      exact absurd (fun a => by have := he a; have := (i a).isLt; omega) h

/-- An operand axis is kept by a scatter's window exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Gathering node values along the edges -/

section Gather
variable {α : Type}

/-- The dimension numbers of the gather of a vector of node values `[N]` at an index array `[M, 1]`: the one operand
    axis is collapsed and named by the start index map, every slice is one element, and the index vector lies along axis 1. -/
abbrev rowDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at edge `e`: the operand at the index word of `e`, read signed and clamped into
    `[0, N - 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims1 N M wf).start (ix1 e) idx 0 + (rowDims1 N M wf).batchCoord (ix1 e) 0
    + (rowDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims1 N M wf).startIndexMap from List.mem_singleton.mpr rfl)]
  have hsi : (rowDims1 N M wf).siIdx (ix1 e) ⟨List.idxOf (0 : Fin 1) (rowDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of the gather of a matrix of node rows `[N, C]` at an index array `[M, 1]`: the row axis
    is collapsed and named by the start index map, a slice is one whole row, which fills the result's axis 1, and the index
    vector lies along axis 1. -/
abbrev rowDims2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at edge `e` and column `o`: column `o` of the operand's row at the index word of `e`, read
    signed and clamped into `[0, N - 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (o : Fin C) :
    Host.gather (rowDims2 N C M wf) x idx (ix2 e o)
      = x (ix2 ⟨min (idx (ix2 e 0)).toInt.toNat (N - 1), by omega⟩ o) := by
  unfold Host.gather
  congr 1
  funext a
  refine Fin.ext ?_
  match a with
  | ⟨0, _⟩ =>
    show (rowDims2 N C M wf).start (ix2 e o) idx 0 + (rowDims2 N C M wf).batchCoord (ix2 e o) 0
      + (rowDims2 N C M wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C M wf).startIndexMap from List.mem_singleton.mpr rfl)]
    have hsi : (rowDims2 N C M wf).siIdx (ix2 e o) ⟨List.idxOf (0 : Fin 2) (rowDims2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims2 N C M wf).start (ix2 e o) idx 1 + (rowDims2 N C M wf).batchCoord (ix2 e o) 1
      + (rowDims2 N C M wf).offCoord (ix2 e o) 1 = _
    have h1 : (1 : Fin 2) ∉ (rowDims2 N C M wf).startIndexMap := by
      intro h; exact absurd (List.mem_singleton.mp h) (show ¬((1 : Fin 2) = 0) by decide)
    have h2 : (1 : Fin 2) ∈ (rowDims2 N C M wf).sKept :=
      (GatherDims.mem_sKept _ _).mpr ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

end Gather

/-! ## Summing edge values into the nodes -/

section ScatterAdd
variable {φ : FTy}

/-- The dimension numbers of the accumulation of a vector of edge values `[M]` into a vector of node values `[N]` at an
    index array `[M, 1]`: an update is a single element (no window axis), the one operand axis is inserted and named by
    the index vector, which lies along axis 1. -/
abbrev addDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Edge `e`'s value lands at node `i` exactly when the index word of `e`, read signed, is `i`. -/
theorem addDims1_lands {N M w : Nat} (wf : ScatterDims.WF ⟨1, ![N]⟩ ⟨2, ![M, 1]⟩ ⟨1, ![M]⟩ [] [0] [0] 1)
    (idx : IVec ⟨2, ![M, 1]⟩ w) (e : Fin M) (i : Fin N) :
    (addDims1 N M wf).resultIdx? (ix1 e) idx = some (ix1 i) ↔ (idx (ix2 e 0)).toInt = (i.val : Int) := by
  rw [resultIdx?_eq_some_iff]
  have hstart : (addDims1 N M wf).start (ix1 e) idx 0 = (idx (ix2 e 0)).toInt := by
    unfold ScatterDims.start
    rw [dif_pos (show (0 : Fin 1) ∈ (addDims1 N M wf).scatterDimsToOperandDims from List.mem_singleton.mpr rfl)]
    have hsi : (addDims1 N M wf).siIdx (ix1 e) ⟨List.idxOf (0 : Fin 1) (addDims1 N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (addDims1 N M wf).window (ix1 e) 0 = 0 := by
    unfold ScatterDims.window
    rw [dif_neg (fun h => (mem_sKept _ _).mp h (List.mem_singleton.mpr rfl))]
  constructor
  · intro h
    have h0 : (addDims1 N M wf).start (ix1 e) idx 0 + (((addDims1 N M wf).window (ix1 e) 0 : Nat) : Int)
        = (i.val : Int) := h 0
    rw [hstart, hwin] at h0
    simpa using h0
  · intro h a
    obtain rfl : a = 0 := Subsingleton.elim _ _
    show (addDims1 N M wf).start (ix1 e) idx 0 + (((addDims1 N M wf).window (ix1 e) 0 : Nat) : Int) = (i.val : Int)
    rw [hstart, hwin]
    simpa using h

/-- The accumulated vector read at node `i`: the operand's element plus the sum of the updates of the edges whose index
    word, read signed, is `i`. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (addDims1 N M wf) x idx upd (ix1 i)
      = x (ix1 i) + ∑ e ∈ Finset.univ.filter (fun e : Fin M => (idx (ix2 e 0)).toInt = (i.val : Int)),
          upd (ix1 e) := by
  show Ideal.hostScatterAdd (addDims1 N M wf) x idx upd (ix1 i) = _
  unfold Ideal.hostScatterAdd
  congr 1
  rw [Finset.sum_filter, Finset.sum_filter, ← Equiv.sum_comp (idxEquiv1 (n := M)).symm]
  refine Finset.sum_congr rfl fun e _ => ?_
  show (if (addDims1 N M wf).resultIdx? (ix1 e) idx = some (ix1 i) then upd (ix1 e) else 0) = _
  by_cases h : (idx (ix2 e 0)).toInt = (i.val : Int)
  · rw [if_pos ((addDims1_lands wf idx e i).mpr h), if_pos h]
  · rw [if_neg (fun h' => h ((addDims1_lands wf idx e i).mp h')), if_neg h]

/-- The dimension numbers of the accumulation of a matrix of edge rows `[M, C]` into a matrix of node rows `[N, C]` at
    an index array `[M, 1]`: an update is one whole row (axis 1 of the updates is the window, laid on axis 1 of the
    operand), the row axis of the operand is inserted and named by the index vector, which lies along axis 1. -/
abbrev addDims2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Column `o'` of edge `e`'s row lands at column `o` of node `i` exactly when the index word of `e`, read signed, is
    `i` and the columns are the same. -/
theorem addDims2_lands {N C M w : Nat} (wf : ScatterDims.WF ⟨2, ![N, C]⟩ ⟨2, ![M, 1]⟩ ⟨2, ![M, C]⟩ [1] [0] [0] 1)
    (idx : IVec ⟨2, ![M, 1]⟩ w) (e : Fin M) (o' : Fin C) (i : Fin N) (o : Fin C) :
    (addDims2 N C M wf).resultIdx? (ix2 e o') idx = some (ix2 i o)
      ↔ (idx (ix2 e 0)).toInt = (i.val : Int) ∧ o' = o := by
  rw [resultIdx?_eq_some_iff]
  have hstart0 : (addDims2 N C M wf).start (ix2 e o') idx 0 = (idx (ix2 e 0)).toInt := by
    unfold ScatterDims.start
    rw [dif_pos (show (0 : Fin 2) ∈ (addDims2 N C M wf).scatterDimsToOperandDims from List.mem_singleton.mpr rfl)]
    have hsi : (addDims2 N C M wf).siIdx (ix2 e o') ⟨List.idxOf (0 : Fin 2) (addDims2 N C M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addDims2 N C M wf).start (ix2 e o') idx 1 = 0 := by
    unfold ScatterDims.start
    rw [dif_neg (fun h => absurd (List.mem_singleton.mp h) (show ¬((1 : Fin 2) = 0) by decide))]
  have hwin0 : (addDims2 N C M wf).window (ix2 e o') 0 = 0 := by
    unfold ScatterDims.window
    rw [dif_neg (fun h => (mem_sKept _ _).mp h (List.mem_singleton.mpr rfl))]
  have hwin1 : (addDims2 N C M wf).window (ix2 e o') 1 = o'.val := by
    unfold ScatterDims.window
    rw [dif_pos ((mem_sKept _ _).mpr
      (fun h => absurd (List.mem_singleton.mp h) (show ¬((1 : Fin 2) = 0) by decide)))]
    rfl
  constructor
  · intro h
    have h0 : (addDims2 N C M wf).start (ix2 e o') idx 0 + (((addDims2 N C M wf).window (ix2 e o') 0 : Nat) : Int)
        = (i.val : Int) := h 0
    have h1 : (addDims2 N C M wf).start (ix2 e o') idx 1 + (((addDims2 N C M wf).window (ix2 e o') 1 : Nat) : Int)
        = (o.val : Int) := h 1
    rw [hstart0, hwin0] at h0
    rw [hstart1, hwin1] at h1
    exact ⟨by simpa using h0, Fin.ext (by omega)⟩
  · rintro ⟨h, rfl⟩ a
    match a with
    | ⟨0, _⟩ =>
      show (addDims2 N C M wf).start (ix2 e o') idx 0 + (((addDims2 N C M wf).window (ix2 e o') 0 : Nat) : Int)
        = (i.val : Int)
      rw [hstart0, hwin0]
      simpa using h
    | ⟨1, _⟩ =>
      show (addDims2 N C M wf).start (ix2 e o') idx 1 + (((addDims2 N C M wf).window (ix2 e o') 1 : Nat) : Int)
        = (o'.val : Int)
      rw [hstart1, hwin1]
      simp

/-- The accumulated matrix read at node `i` and column `o`: the operand's element plus the sum, over the edges whose
    index word read signed is `i`, of column `o` of the edge's update row. -/
theorem scatterAdd2_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (o : Fin C) :
    Host.scatterAdd (F := Ideal) (φ := φ) (addDims2 N C M wf) x idx upd (ix2 i o)
      = x (ix2 i o) + ∑ e ∈ Finset.univ.filter (fun e : Fin M => (idx (ix2 e 0)).toInt = (i.val : Int)),
          upd (ix2 e o) := by
  show Ideal.hostScatterAdd (addDims2 N C M wf) x idx upd (ix2 i o) = _
  unfold Ideal.hostScatterAdd
  congr 1
  rw [Finset.sum_filter, Finset.sum_filter, sum_idx2]
  refine Finset.sum_congr rfl fun e _ => ?_
  by_cases h : (idx (ix2 e 0)).toInt = (i.val : Int)
  · rw [if_pos h, Finset.sum_eq_single o]
    · exact if_pos ((addDims2_lands wf idx e o i o).mpr ⟨h, rfl⟩)
    · intro b _ hb
      exact if_neg (fun h' => hb ((addDims2_lands wf idx e b i o).mp h').2)
    · intro ho
      exact absurd (Finset.mem_univ o) ho
  · rw [if_neg h]
    exact Finset.sum_eq_zero fun b _ => if_neg (fun h' => h ((addDims2_lands wf idx e b i o).mp h').1)

end ScatterAdd

end Idealize.ShloMosaic.SegmentOps

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.MsgBridge.lean ====
/-
  The kernel's messages are the reference's messages.

  Both programs read, for edge `e`, the node `n e`: the source index, a negative one moved up by the number of nodes,
  clamped into the node range. The kernel forms `x (n e, ·) · ((w e · mask e) · norm (n e))` — it gathers the feature row
  and the norm separately and multiplies by the combined edge scalar —, the reference `(x (n e, ·) · norm (n e)) · (w e ·
  mask e)` — it scales the feature table first and gathers the scaled row. On the extended reals multiplication is
  commutative and associative, so the two agree at every edge and lane, with no finiteness needed.
-/
import proofs.«162044_j2388001817202_2_alg».proof.Proof.Spec
import proofs.«162044_j2388001817202_2_alg».proof.Proof.EdgeWeight
import proofs.«162044_j2388001817202_2_alg».proof.Proof.MsgBlocks
import proofs.«162044_j2388001817202_2_alg».proof.Proof.LibSegmentOps
import proofs.«162044_j2388001817202_2_alg».proof.Proof.LibHostReads

set_option maxRecDepth 16384

noncomputable section

open scoped BigOperators

namespace Cert.KernelIdeal.MsgBridge

open Idealize.ShloMosaic Idealize.ShloMosaic.ValueIdx
open Cert.KernelIdeal.HostValue Cert.KernelIdeal.MsgValue Cert.NodeScore

/-- The node edge `e` reads: its wrapped source index, read signed, clamped into `[0, 99999]`. -/
def srcNode (s : IVec ⟨1, ![1600000]⟩ 32) (e : Fin 1600000) : Fin 100000 :=
  ⟨min (wrapCol s (ix2 e 0)).toInt.toNat (100000 - 1), by omega⟩

/-- A row of the kernel's gathered features. -/
theorem srcRows_apply (x : FVec Ideal ⟨2, ![100000, 32]⟩ .f32) (s : IVec ⟨1, ![1600000]⟩ 32) (e : Fin 1600000) (o : Fin 32) :
    srcRows x s (ix2 e o) = x (ix2 (srcNode s e) o) :=
  SegmentOps.gather2_apply (N := 100000) (C := 32) (M := 1600000) (by decide) _ x (wrapCol s) e o

/-- The kernel's gathered norm. -/
theorem gatherNorm_apply (v : FVec Ideal ⟨1, ![100000]⟩ .f32) (s : IVec ⟨1, ![1600000]⟩ 32) (e : Fin 1600000) :
    Host.gather Cert.KernelIdeal.gather_S100000_S1600000x1_S1600000_n_0_n_n_0_1_1 v (wrapCol s) (ix1 e)
      = v (ix1 (srcNode s e)) :=
  SegmentOps.gather1_apply (N := 100000) (M := 1600000) (by decide) _ v (wrapCol s) e

/-- A row of the reference's gather of the scaled feature table. -/
theorem refRows_apply (y : FVec Ideal ⟨2, ![100000, 32]⟩ .f32) (s : IVec ⟨1, ![1600000]⟩ 32) (e : Fin 1600000) (o : Fin 32) :
    Host.gather Cert.ReferenceIdeal.gather_S100000x32_S1600000x1_S1600000x32_1_0_n_n_0_1_132 y (wrapCol s) (ix2 e o)
      = y (ix2 (srcNode s e) o) :=
  SegmentOps.gather2_apply (N := 100000) (C := 32) (M := 1600000) (by decide) _ y (wrapCol s) e o

/-- The kernel's edge weight: weight · mask · source norm at the source. -/
theorem edgeWeight_apply (w : FVec Ideal ⟨2, ![1600000, 1]⟩ .f32) (s d : IVec ⟨1, ![1600000]⟩ 32) (e : Fin 1600000) :
    edgeWeight w s d (ix2 e 0) = (w (ix2 e 0) * loopMask s d (ix1 e)) * degNorm s (ix1 (srcNode s e)) := by
  unfold edgeWeight
  rw [HostReads.bcast_toCol_apply, mulf_apply, mulf_apply, gatherNorm_apply]
  congr 2
  exact shapeCast_apply w _ (ix1 e) (ix2 e 0) (by
    rw [Shape.rowMajor_val_two, Shape.rowMajor_val_one]
    show e.val * 1 + 0 = e.val
    omega)

/-- The reference's message: (feature · source norm) at the source, times (weight · mask). -/
theorem edgeMsg_apply (x : FVec Ideal ⟨2, ![100000, 32]⟩ .f32) (w : FVec Ideal ⟨2, ![1600000, 1]⟩ .f32)
    (s d : IVec ⟨1, ![1600000]⟩ 32) (e : Fin 1600000) (o : Fin 32) :
    edgeMsg x w s d (ix2 e o)
      = (x (ix2 (srcNode s e) o) * degNorm s (ix1 (srcNode s e))) * (w (ix2 e 0) * loopMask s d (ix1 e)) := by
  unfold edgeMsg
  rw [mulf_apply, refRows_apply, mulf_apply, HostReads.bcast_col_apply, HostReads.bcast_col_apply, mulf_apply,
    HostReads.bcast_toCol_apply]
  unfold normCol
  rw [HostReads.bcast_toCol_apply]

/-- A product regrouped. -/
theorem regroup (a b c : EReal) : a * (b * c) = (a * c) * b := by rw [mul_comm b c, ← mul_assoc]

/-- The kernel's message array is the reference's. -/
theorem msg_eq (x : FVec Ideal ⟨2, ![100000, 32]⟩ .f32) (w : FVec Ideal ⟨2, ![1600000, 1]⟩ .f32) (s d : IVec ⟨1, ![1600000]⟩ 32) :
    msgOf (srcRows x s) (edgeWeight w s d) = edgeMsg x w s d := by
  funext i
  obtain ⟨e, o, rfl⟩ : ∃ (e : Fin 1600000) (o : Fin 32), i = ix2 e o := ⟨i 0, i 1, eq_ix2 i⟩
  show mulE (srcRows x s (ix2 e o)) (edgeWeight w s d (ix2 e 0)) = _
  rw [srcRows_apply, edgeWeight_apply, edgeMsg_apply]
  exact regroup _ _ _

end Cert.KernelIdeal.MsgBridge

end
-- ==== Proof.TailBridge.lean ====
/-
  The kernel's score column, its unit axis dropped, is the reference's lane sum.

  At node `n` the kernel's column holds the sum over the 32 lanes of `|x − agg · norm|`; the reference's reduction holds
  its initial value 0 plus the same sum over the lanes of the same terms (its norm column spread along the lanes first).
-/
import proofs.«162044_j2388001817202_2_alg».proof.Proof.Spec
import proofs.«162044_j2388001817202_2_alg».proof.Proof.ScoreBlocks
import proofs.«162044_j2388001817202_2_alg».proof.Proof.LibHostReads
import Idealize.ShloMosaic.Lib.IdealHost

set_option maxRecDepth 16384

noncomputable section

open scoped BigOperators

namespace Cert.KernelIdeal.TailBridge

open Idealize.ShloMosaic Idealize.ShloMosaic.ValueIdx
open Cert.KernelIdeal.ScoreValue Cert.NodeScore

/-- The score column with its unit axis dropped is `scoreTail`. -/
theorem tail_eq (x A : FVec Ideal ⟨2, ![100000, 32]⟩ .f32) (ncol : FVec Ideal ⟨2, ![100000, 1]⟩ .f32)
    (h : (⟨2, ![100000, 1]⟩ : Shape).ShapeCasts ⟨1, ![100000]⟩) :
    shapeCast ⟨1, ![100000]⟩ (scoreOf x A ncol) h = scoreTail x A ncol := by
  funext i
  obtain ⟨n, rfl⟩ : ∃ n : Fin 100000, i = ix1 n := ⟨i 0, eq_ix1 i⟩
  rw [shapeCast_apply (scoreOf x A ncol) h (ix1 n) (ix2 n 0) (by
    rw [Shape.rowMajor_val_two, Shape.rowMajor_val_one]
    show n.val * 1 + 0 = n.val
    omega)]
  unfold scoreTail
  rw [hostReduceAdd_apply]
  refine Eq.trans ?_ (HostReads.hostSum2_apply _ (by decide) _ _ n).symm
  rw [constant_apply, Ideal.ofBits_zero_f32, zero_add]
  show ∑ k : Fin 32, termE (x (ix2 n k)) (A (ix2 n k)) (ncol (ix2 n 0)) = _
  refine Finset.sum_congr rfl fun k _ => ?_
  refine congrArg absE ?_
  rw [subf_apply, mulf_apply, HostReads.bcast_col_apply]

end Cert.KernelIdeal.TailBridge

end
-- ==== Proof.RefIsSpec.lean ====
/-
  The reference program computes the node score: its run ends with the result buffer at `nodeScore` of the launch
  contents of the four arguments (the run's composed term is `nodeScore` with its stages unfolded).
-/
import proofs.«162044_j2388001817202_2_alg».proof.Proof.Gen.ReferenceIdeal.Run
import proofs.«162044_j2388001817202_2_alg».proof.Proof.Spec

set_option maxRecDepth 16384

noncomputable section

open scoped BigOperators

namespace Cert.ReferenceIdeal.RefValue

open Idealize.ShloMosaic Idealize.ShloMosaic.TcCoe Idealize.SL.Sem
open Cert.ReferenceIdeal Cert.ReferenceIdeal.Gen Cert.NodeScore

/-- Every weakly fair execution of the reference ends with its result at the node score of its arguments, which it
    leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = nodeScore (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      unfold nodeScore scoreTail aggOf edgeMsg normCol wrapCol loopMask degNorm; rfl), (h c).2⟩)
    (Cert.ReferenceIdeal.Value.run (F := Ideal) m ρ)

end Cert.ReferenceIdeal.RefValue

end
-- ==== Proof.lean ====
/-
  A graph layer's node score: two tiled kernels among host gathers and segment sums, against the plain array program.

  Both programs compute, for a graph on 100000 nodes with 1600000 edges, per node the lane sum of
  `|x − agg · dstNorm|`, where `agg` sums over the edges ending at the node the message
  `x[src] · srcNorm[src] · weight · (src ≠ dst)` and the norms are `max(1, degree)^(−1/2)`. The kernel program gathers the
  feature rows and the source norm separately, multiplies the rows by one combined per-edge scalar in a tiled region,
  sums into the nodes on the host and takes the lane sums in a second tiled region; the reference scales the feature
  table first, gathers the scaled rows, multiplies by weight · mask and reduces on the host.

  * The frames of the kernel programs are the generated ones; the reference's frame is its run with the result dropped.
  * No rewrite was applied in idealizing the kernel, so `preserves` has nothing to state.
  * `algebraic`: the kernel's run ends with its result at the last boundary's contents (KernelRun), which read back
    through the host stretches and the two regions' blocks (MsgBlocks, ScoreBlocks, HostChain) are `kernelScore` of the
    arguments; the reference's run ends at `nodeScore` of them (RefIsSpec); and the two are one function: the messages
    agree edge by edge because multiplication of extended reals is commutative and associative (MsgBridge), and the
    score column with its unit axis dropped is the host's lane sum from 0 (TailBridge). No finiteness is used.
-/
import proofs.«162044_j2388001817202_2_alg».proof.Defs
import proofs.«162044_j2388001817202_2_alg».proof.Proof.Gen.Kernel
import proofs.«162044_j2388001817202_2_alg».proof.Proof.Gen.Kernel.Frame
import proofs.«162044_j2388001817202_2_alg».proof.Proof.Gen.KernelIdeal
import proofs.«162044_j2388001817202_2_alg».proof.Proof.Gen.KernelIdeal.Frame
import proofs.«162044_j2388001817202_2_alg».proof.Proof.Gen.ReferenceIdeal
import proofs.«162044_j2388001817202_2_alg».proof.Proof.Gen.ReferenceIdeal.Run
import proofs.«162044_j2388001817202_2_alg».proof.Proof.Gen.Pre_finite_inputs
import proofs.«162044_j2388001817202_2_alg».proof.Proof.KernelRun
import proofs.«162044_j2388001817202_2_alg».proof.Proof.HostChain
import proofs.«162044_j2388001817202_2_alg».proof.Proof.MsgBridge
import proofs.«162044_j2388001817202_2_alg».proof.Proof.TailBridge
import proofs.«162044_j2388001817202_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's value is the node score: its messages are the reference's, and its score column with the unit
    axis dropped is the reference's lane sum. -/
theorem kernelScore_eq (x : FVec Ideal Cert.KernelIdeal.S100000x32 .f32) (w : FVec Ideal Cert.KernelIdeal.S1600000x1 .f32)
    (s d : IVec Cert.KernelIdeal.S1600000 32) :
    Cert.KernelIdeal.HostValue.kernelScore x w s d = Cert.NodeScore.nodeScore x w s d := by
  unfold Cert.KernelIdeal.HostValue.kernelScore Cert.NodeScore.nodeScore
  rw [Cert.KernelIdeal.MsgBridge.msg_eq]
  exact Cert.KernelIdeal.TailBridge.tail_eq _ _ _ _

/-- From memories agreeing on the arguments both idealized programs end with their results at the node score of the
    arguments. -/
theorem algebraic : Cert.algebraic_KernelIdeal_ReferenceIdeal := by
  intro m ρ m' ρ' _ hagree
  refine ⟨fun c => Cert.NodeScore.nodeScore
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((Cert.KernelIdeal.HostValue.W9_v39 m ρ c).trans (kernelScore_eq _ _ _ _)), (h c).2⟩)
      (Cert.KernelIdeal.RunValue.run m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
